-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S10000x64 : Shape := ⟨2, ![10000, 64]⟩
abbrev S10000x32 : Shape := ⟨2, ![10000, 32]⟩
abbrev S1700000x32 : Shape := ⟨2, ![1700000, 32]⟩
abbrev S1x32 : Shape := ⟨2, ![1, 32]⟩
abbrev S10000 : Shape := ⟨1, ![10000]⟩
abbrev S10000x1 : Shape := ⟨2, ![10000, 1]⟩

abbrev nBuf : Space → Nat
  | .hbm => 84
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x32, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x1, .f32⟩
  | .hbm, ⟨76, _⟩ => ⟨S1700000x32, .f32⟩
  | .hbm, ⟨77, _⟩ => ⟨S1700000x32, .f32⟩
  | .hbm, ⟨78, _⟩ => ⟨S_, .f32⟩
  | .hbm, ⟨79, _⟩ => ⟨S100000x32, .f32⟩
  | .hbm, ⟨80, _⟩ => ⟨S1700000x1, .i32⟩
  | .hbm, ⟨81, _⟩ => ⟨S100000x32, .f32⟩
  | .hbm, ⟨82, _⟩ => ⟨S1x32, .f32⟩
  | .hbm, ⟨83, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000, .i32⟩
  | 71 => ⟨S1700000, .i32⟩
  | 72 => ⟨S1700000, .i32⟩
  | 73 => ⟨S100000x32, .f32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x32, .f32⟩
  | 117 => ⟨S1700000x1, .f32⟩
  | 118 => ⟨S1700000x32, .f32⟩
  | 119 => ⟨S1700000x32, .f32⟩
  | 120 => ⟨S_, .f32⟩
  | 121 => ⟨S100000x32, .f32⟩
  | 122 => ⟨S1700000x1, .i32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x32, .f32⟩
  | 6 => ⟨S100000x32, .f32⟩
  | 7 => ⟨S100000x32, .f32⟩
  | 8 => ⟨S_, .f32⟩
  | 9 => ⟨S100000, .f32⟩
  | 10 => ⟨S100000x1, .f32⟩
  | 11 => ⟨S100000x1, .f32⟩
  | 12 => ⟨S100000x32, .f32⟩
  | 13 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_c_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_19 : Ref sig .tc := ⟨.hbm, 108, rfl⟩
abbrev main_v79 : Ref sig .tc := ⟨.hbm, 109, rfl⟩
abbrev main_v80 : Ref sig .tc := ⟨.hbm, 110, rfl⟩
abbrev main_c_20 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_21 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call3_cst : Ref sig .tc := ⟨.hbm, 127, rfl⟩
abbrev main_call3_v0 : Ref sig .tc := ⟨.hbm, 128, rfl⟩
abbrev main_call3_cst_0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_cst_1 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_v95 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.LibConcatPair.lean ====
/-
  A concatenation of two arrays as a function of the two arrays alone.

  `concatenate t a xs h` takes its operands as a list of (shape, array) pairs, and the evidence `h` that the shapes fit is
  stated about that list. So the type of `h` mentions the arrays, and a rewrite of an operand inside the list has to carry
  `h` along: rewriting under a concatenation stops there. For two operands `pair` is the same array with the evidence
  stated about the two shapes only; `concatenate_pair` turns the one into the other (the two are the same term up to
  unfolding), after which both operands are ordinary arguments and can be rewritten.
-/
import Idealize.ShloMosaic.PureOps.ShapeOps

noncomputable section

namespace Cert.Lib.ConcatPair

open Idealize.ShloMosaic

variable {α : Type}

/-- Two arrays joined along axis `a` of the result shape `t`. -/
def pair (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- A two-operand concatenation is `pair` of its operands. -/
theorem concatenate_pair (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = pair t a s₁ s₂ x₁ x₂ h := rfl

end Cert.Lib.ConcatPair

end
-- ==== Proof.LibOutlined.lean ====
/-
  Two facts about a line of host operations, for any program.

  * The buffer contents after two lines run one after the other are the second line's contents from the first's:
    `after (l₁ ++ l₂) V = after l₂ (after l₁ V)`. A long line can therefore be read back one stretch at a time, each
    stretch from an arbitrary valuation, and the readings composed.
  * An operation of an outlined function carries each value to its buffer's own type and, at the next operation, back
    (`TRef.toBuf`, `TRef.ofBuf`: transport along the equation "the buffer's type is the value's"). A value carried there
    and back is unchanged, whatever the buffer: `x.ofBuf (x.toBuf v) = v`. Rewriting with it (it matches syntactically,
    no buffer type is evaluated) clears every intermediate of an outlined function from the contents after its
    operations; what is left are the transports at the function's inputs and results, one small equation each.
-/
import Idealize.ShloMosaic.Lib.StableHlo.Run

noncomputable section

namespace Cert.Lib.Outlined

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {T : BufTy} (x : TRef sig T) (v : T.Contents Val) : x.ofBuf (x.toBuf v) = v := by
  obtain ⟨r, h, _, _⟩ := x
  subst h
  rfl

/-- The other way round. -/
theorem toBuf_ofBuf {T : BufTy} (x : TRef sig T) (u : x.ref.ty.Contents Val) : x.toBuf (x.ofBuf u) = u := by
  obtain ⟨r, h, _, _⟩ := x
  subst h
  rfl

end Cert.Lib.Outlined

end
-- ==== Proof.LibRowLayers.lean ====
/-
  The dense layers of a two-convolution graph network, entry by entry over the extended reals.

  Every layer here maps an array of `n` rows to an array of `n` rows, and entry `(r, q)` of the result reads row `r` of
  the input only. So a layer of the whole array, restricted to a block of rows, is the same layer of that block: that is
  why a kernel that walks the rows block by block computes the whole-array layer. A bias is carried as a one-row array.
    * `affineLinear x A a B`   : `(x · A + a) · B`                              (two products, no nonlinearity between);
    * `reluLinear y b W`       : `max (y + b) 0 · W`;
    * `reluAffine y b W c`     : `max (y + b) 0 · W + c`;
    * `logSoftmaxRows z`       : `(z − max_j z) − log Σ_j exp (z − max_j z)`, the maximum and the sum along each row.
-/
import Idealize.ShloMosaic.PureOps.Ideal.Laws
import Idealize.ShloMosaic.Lib.ValueIdx

noncomputable section

open scoped BigOperators

namespace Gcn.Layers

open Idealize.ShloMosaic Idealize.ShloMosaic.ValueIdx

variable {n K H C : ℕ}

/-- `(x · A + a) · B` at entry `(r, q)`: `Σ_k (Σ_l x[r,l] · A[l,k] + a[0,k]) · B[k,q]`. -/
def affineLinear (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) :
    (⟨2, ![n, C]⟩ : Shape).Idx → EReal :=
  fun i => ∑ k : Fin H, (∑ l : Fin K, x (ix2 (i 0) l) * A (ix2 l k) + a (ix2 (0 : Fin 1) k)) * B (ix2 k (i 1))

/-- `max (y + b) 0 · W` at entry `(r, q)`: `Σ_k max (y[r,k] + b[0,k]) 0 · W[k,q]`. -/
def reluLinear (y : (⟨2, ![n, H]⟩ : Shape).Idx → EReal) (b : (⟨2, ![1, H]⟩ : Shape).Idx → EReal)
    (W : (⟨2, ![H, C]⟩ : Shape).Idx → EReal) : (⟨2, ![n, C]⟩ : Shape).Idx → EReal :=
  fun i => ∑ k : Fin H, max (y (ix2 (i 0) k) + b (ix2 (0 : Fin 1) k)) 0 * W (ix2 k (i 1))

/-- `max (y + b) 0 · W + c`. -/
def reluAffine (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) :
    (⟨2, ![n, C]⟩ : Shape).Idx → EReal :=
  fun i => reluLinear y b W i + c (ix2 (0 : Fin 1) (i 1))

/-- The largest entry of row `r`. -/
def rowMax (z : (⟨2, ![n, C]⟩ : Shape).Idx → EReal) (r : Fin n) : EReal :=
  (Finset.univ : Finset (Fin C)).sup fun j => z (ix2 r j)

/-- The logarithm of a row's softmax: each entry less the row's maximum, less the logarithm of the row's sum of the
    exponentials of those differences. -/
def logSoftmaxRows (z : (⟨2, ![n, C]⟩ : Shape).Idx → EReal) : (⟨2, ![n, C]⟩ : Shape).Idx → EReal :=
  fun i => (z i - rowMax z (i 0)) - Ideal.log (∑ j : Fin C, Ideal.exp (z (ix2 (i 0) j) - rowMax z (i 0)))

/-! ## A layer reads one row -/

theorem affineLinear_apply (x : (⟨2, ![n, K]⟩ : Shape).Idx → EReal) (A : (⟨2, ![K, H]⟩ : Shape).Idx → EReal)
    (a : (⟨2, ![1, H]⟩ : Shape).Idx → EReal) (B : (⟨2, ![H, C]⟩ : Shape).Idx → EReal) (r : Fin n) (q : Fin C) :
    affineLinear x A a B (ix2 r q)
      = ∑ k : Fin H, (∑ l : Fin K, x (ix2 r l) * A (ix2 l k) + a (ix2 (0 : Fin 1) k)) * B (ix2 k q) := rfl

theorem reluLinear_apply (y : (⟨2, ![n, H]⟩ : Shape).Idx → EReal) (b : (⟨2, ![1, H]⟩ : Shape).Idx → EReal)
    (W : (⟨2, ![H, C]⟩ : Shape).Idx → EReal) (r : Fin n) (q : Fin C) :
    reluLinear y b W (ix2 r q) = ∑ k : Fin H, max (y (ix2 r k) + b (ix2 (0 : Fin 1) k)) 0 * W (ix2 k q) := rfl

theorem reluAffine_apply (y : (⟨2, ![n, H]⟩ : Shape).Idx → EReal) (b : (⟨2, ![1, H]⟩ : Shape).Idx → EReal)
    (W : (⟨2, ![H, C]⟩ : Shape).Idx → EReal) (c : (⟨2, ![1, C]⟩ : Shape).Idx → EReal) (r : Fin n) (q : Fin C) :
    reluAffine y b W c (ix2 r q)
      = (∑ k : Fin H, max (y (ix2 r k) + b (ix2 (0 : Fin 1) k)) 0 * W (ix2 k q)) + c (ix2 (0 : Fin 1) q) := rfl

theorem logSoftmaxRows_apply (z : (⟨2, ![n, C]⟩ : Shape).Idx → EReal) (r : Fin n) (q : Fin C) :
    logSoftmaxRows z (ix2 r q)
      = (z (ix2 r q) - rowMax z r) - Ideal.log (∑ j : Fin C, Ideal.exp (z (ix2 r j) - rowMax z r)) := rfl

/-! ## Rows of a block are rows of the array

  If block `X` of `m` rows holds rows `o, o + 1, …` of the array `x` (`hX`), then a layer of the block at `(p, q)` is
  the layer of the array at `(o + p, q)`. -/

section Blocks

variable {m : ℕ}

theorem affineLinear_block (x : (⟨2, ![n, K]⟩ : Shape).Idx → EReal) (X : (⟨2, ![m, K]⟩ : Shape).Idx → EReal)
    (A : (⟨2, ![K, H]⟩ : Shape).Idx → EReal) (a : (⟨2, ![1, H]⟩ : Shape).Idx → EReal)
    (B : (⟨2, ![H, C]⟩ : Shape).Idx → EReal) (p : Fin m) (r : Fin n) (hX : ∀ l : Fin K, X (ix2 p l) = x (ix2 r l))
    (q : Fin C) : affineLinear X A a B (ix2 p q) = affineLinear x A a B (ix2 r q) := by
  rw [affineLinear_apply, affineLinear_apply]
  refine Finset.sum_congr rfl fun k _ => ?_
  refine congrArg (fun s => (s + a (ix2 (0 : Fin 1) k)) * B (ix2 k q)) ?_
  exact Finset.sum_congr rfl fun l _ => by rw [hX l]

theorem reluLinear_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal) (p : Fin m) (r : Fin n)
    (hY : ∀ k : Fin H, Y (ix2 p k) = y (ix2 r k)) (q : Fin C) :
    reluLinear Y b W (ix2 p q) = reluLinear y b W (ix2 r q) := by
  rw [reluLinear_apply, reluLinear_apply]
  exact Finset.sum_congr rfl fun k _ => by rw [hY k]

theorem reluAffine_block (y : (⟨2, ![n, H]⟩ : Shape).Idx → EReal) (Y : (⟨2, ![m, H]⟩ : Shape).Idx → EReal)
    (b : (⟨2, ![1, H]⟩ : Shape).Idx → EReal) (W : (⟨2, ![H, C]⟩ : Shape).Idx → EReal)
    (c : (⟨2, ![1, C]⟩ : Shape).Idx → EReal) (p : Fin m) (r : Fin n)
    (hY : ∀ k : Fin H, Y (ix2 p k) = y (ix2 r k)) (q : Fin C) :
    reluAffine Y b W c (ix2 p q) = reluAffine y b W c (ix2 r q) :=
  congrArg (· + c (ix2 (0 : Fin 1) q)) (reluLinear_block y Y b W p r hY q)

theorem rowMax_block (z : (⟨2, ![n, C]⟩ : Shape).Idx → EReal) (Z : (⟨2, ![m, C]⟩ : Shape).Idx → EReal) (p : Fin m)
    (r : Fin n) (hZ : ∀ j : Fin C, Z (ix2 p j) = z (ix2 r j)) : rowMax Z p = rowMax z r := by
  unfold rowMax
  exact congrArg (fun f => (Finset.univ : Finset (Fin C)).sup f) (funext hZ)

theorem logSoftmaxRows_block (z : (⟨2, ![n, C]⟩ : Shape).Idx → EReal) (Z : (⟨2, ![m, C]⟩ : Shape).Idx → EReal)
    (p : Fin m) (r : Fin n) (hZ : ∀ j : Fin C, Z (ix2 p j) = z (ix2 r j)) (q : Fin C) :
    logSoftmaxRows Z (ix2 p q) = logSoftmaxRows z (ix2 r q) := by
  rw [logSoftmaxRows_apply, logSoftmaxRows_apply, rowMax_block z Z p r hZ, hZ q]
  refine congrArg (fun s => (z (ix2 r q) - rowMax z r) - Ideal.log s) ?_
  exact Finset.sum_congr rfl fun j _ => by rw [hZ j]

end Blocks

end Gcn.Layers

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«135108_j67723044323358_1_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«135108_j67723044323358_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«135108_j67723044323358_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibRowLayerOps.lean ====
/-
  Each dense layer of the network (LibRowLayers.lean) as the two programs spell it, for any number of rows.

  A kernel body spells a layer with vector operations on a block — `tpu.matmul` into the zero accumulator, a one-row bias
  broadcast over the rows, a maximum with the splat of the float zero, lane reductions that keep their axis —, rounding to a
  narrower float format on the way into each product; the host spells it with `dot_general`, `broadcast_in_dim`, `reduce`.
  Over the extended reals a change of float format is the identity, a product into the zero accumulator is the plain sum of
  products, and both spellings of a layer are the entry-by-entry function of LibRowLayers.lean. Nothing here needs the entries to
  be finite: no term is moved across a sum.
-/
import proofs.«135108_j67723044323358_1_alg».proof.Proof.LibRowLayers
import proofs.«135108_j67723044323358_1_alg».proof.Proof.LibDotCols
import proofs.«135108_j67723044323358_1_alg».proof.Proof.LibDotColsHost
import proofs.«135108_j67723044323358_1_alg».proof.Proof.LibHostMax
import proofs.«135108_j67723044323358_1_alg».proof.Proof.LibLaneRows
import Idealize.ShloMosaic.Lib.ValueLayout
import Idealize.ShloMosaic.Lib.Pipeline.Value

noncomputable section

open scoped BigOperators

namespace Gcn.LayerOps

open Idealize.ShloMosaic Idealize.ShloMosaic.ValueIdx Gcn.Layers Cert.Lib.DotCols Cert.Lib.DotColsHost

variable {n K H C : ℕ}

/-! ## Small readings -/

/-- The float zero word denotes zero. -/
theorem ofBits_zero : FloatOps.ofBits (F := Ideal) .f32 0x00000000#32 = (0 : EReal) := Ideal.ofBits_zero_f32

/-- The word of −∞ denotes the bottom element. -/
theorem ofBits_neg_inf : FloatOps.ofBits (F := Ideal) .f32 0xFF800000#32 = (⊥ : EReal) := HostMax.ofBits_neg_inf

/-- A vector of `H` entries as a one-row array. -/
def row (a : (⟨1, ![H]⟩ : Shape).Idx → EReal) : (⟨2, ![1, H]⟩ : Shape).Idx → EReal := fun i => a (ix1 (i 1))

/-- Reshaping a vector to one row is `row`. -/
theorem shapeCast_row (a : (⟨1, ![H]⟩ : Shape).Idx → EReal) (h : (⟨1, ![H]⟩ : Shape).ShapeCasts ⟨2, ![1, H]⟩) :
    shapeCast ⟨2, ![1, H]⟩ a h = row a := by
  funext i
  obtain ⟨u, k, rfl⟩ : ∃ (u : Fin 1) (k : Fin H), i = ix2 u k := ⟨i 0, i 1, eq_ix2 i⟩
  exact shapeCast_a_1a_apply a h u k

/-- The host's bias: a vector set as one row (`dims = [1]`), the row repeated over `n` rows (`dims = [0, 1]`); at
    `(p, k)` it is the vector's entry `k`. -/
theorem bias_rows_apply (a : (⟨1, ![H]⟩ : Shape).Idx → EReal)
    (h1 : (⟨1, ![H]⟩ : Shape).BroadcastsInDim ⟨2, ![1, H]⟩ ![1])
    (h2 : (⟨2, ![1, H]⟩ : Shape).BroadcastsInDim ⟨2, ![n, H]⟩ ![0, 1]) (p : Fin n) (k : Fin H) :
    broadcastInDim ⟨2, ![n, H]⟩ ![0, 1] h2 (broadcastInDim ⟨2, ![1, H]⟩ ![1] h1 a) (ix2 p k) = row a (ix2 (0 : Fin 1) k) := by
  refine (broadcastInDim_apply _ h2 _ (ix2 p k) (ix2 (0 : Fin 1) k) fun ax => ?_).trans ?_
  · match ax with
    | ⟨0, _⟩ => show (0 : ℕ) = if (1 : ℕ) = 1 then 0 else p.val; rw [if_pos rfl]
    | ⟨1, _⟩ =>
      show k.val = if H = 1 then 0 else k.val
      split
      · have := k.isLt; omega
      · rfl
  · refine broadcastInDim_apply _ h1 a (ix2 (0 : Fin 1) k) (ix1 k) fun ax => ?_
    match ax with
    | ⟨0, _⟩ =>
      show k.val = if H = 1 then 0 else k.val
      split
      · have := k.isLt; omega
      · rfl

/-- The host's splat of the float zero over an array. -/
theorem zeros_apply (s : Shape) (h : (⟨0, ![]⟩ : Shape).BroadcastsInDim s ![]) (i : s.Idx) :
    broadcastInDim s ![] h (constant (F := Ideal) ⟨0, ![]⟩ .f32 0x00000000#32) i = (0 : EReal) :=
  (broadcastInDim_apply _ h _ i ix0 fun ax => ax.elim0).trans ofBits_zero

/-! ## `(x · A + a) · B` -/

/-- The kernel's spelling on a block: round, product, bias row over the rows, round, product, round. -/
theorem kernel_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (hlt : FTy.bits .bf16 < FTy.bits .f32) (hb : (⟨2, ![1, H]⟩ : Shape).Broadcasts ⟨2, ![n, H]⟩)
    (x : FVec Ideal ⟨2, ![n, K]⟩ .f32) (A : FVec Ideal ⟨2, ![K, H]⟩ .bf16) (a : FVec Ideal ⟨2, ![1, H]⟩ .f32)
    (B : FVec Ideal ⟨2, ![H, C]⟩ .bf16) :
    truncf .bf16 (matmul D2 none
        (truncf .bf16 (addf (matmul D1 none (truncf .bf16 x hlt) A (constant ⟨2, ![n, H]⟩ .f32 0x00000000#32))
          (broadcastTo ⟨2, ![n, H]⟩ a hb)) hlt)
        B (constant ⟨2, ![n, C]⟩ .f32 0x00000000#32)) hlt
      = affineLinear x A a B := by
  funext j
  obtain ⟨p, q, rfl⟩ : ∃ (p : Fin n) (q : Fin C), j = ix2 p q := ⟨j 0, j 1, eq_ix2 j⟩
  rw [affineLinear_apply]
  refine (matmul_cols_apply D2 hD2 none _ B p q).trans ?_
  refine Finset.sum_congr rfl fun k _ => congrArg (· * B (ix2 k q)) ?_
  exact congrArg₂ (· + ·) (matmul_cols_apply D1 hD1 none _ A p k) (broadcastTo_1b_ab_apply a hb p k)

/-- The host's spelling on the whole array: product, bias, product. -/
theorem host_affineLinear (D1 : DotDims ⟨2, ![n, K]⟩ ⟨2, ![K, H]⟩ ⟨2, ![n, H]⟩) (hD1 : D1 = DotDims.plain n K H)
    (D2 : DotDims ⟨2, ![n, H]⟩ ⟨2, ![H, C]⟩ ⟨2, ![n, C]⟩) (hD2 : D2 = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (x : FVec Ideal ⟨2, ![n, K]⟩ .f32) (A : FVec Ideal ⟨2, ![K, H]⟩ .f32) (a : FVec Ideal ⟨1, ![H]⟩ .f32)
    (B : FVec Ideal ⟨2, ![H, C]⟩ .f32) :
    Host.dotGeneral D2 none
        (addf (Host.dotGeneral D1 none x A)
          (broadcastInDim ⟨2, ![n, H]⟩ ![0, 1] h2 (broadcastInDim ⟨2, ![1, H]⟩ ![1] h1 a))) B
      = affineLinear x A (row a) B := by
  funext j
  obtain ⟨p, q, rfl⟩ : ∃ (p : Fin n) (q : Fin C), j = ix2 p q := ⟨j 0, j 1, eq_ix2 j⟩
  rw [affineLinear_apply]
  refine (dotGeneral_cols_apply D2 hD2 none .single _ B p q).trans ?_
  refine Finset.sum_congr rfl fun k _ => congrArg (· * B (ix2 k q)) ?_
  exact congrArg₂ (· + ·) (dotGeneral_cols_apply D1 hD1 none .single x A p k) (bias_rows_apply a h1 h2 p k)

/-! ## `max (y + b) 0 · W` and `max (y + b) 0 · W + c` -/

/-- The kernel's spelling on a block: bias row, maximum with the splat of the float zero, round, product, round. -/
theorem kernel_reluLinear (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (y : FVec Ideal ⟨2, ![n, H]⟩ .f32) (b : FVec Ideal ⟨2, ![1, H]⟩ .f32) (W : FVec Ideal ⟨2, ![H, C]⟩ .bf16) :
    truncf .bf16 (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) hlt
      = reluLinear y b W := by
  funext j
  obtain ⟨p, q, rfl⟩ : ∃ (p : Fin n) (q : Fin C), j = ix2 p q := ⟨j 0, j 1, eq_ix2 j⟩
  rw [reluLinear_apply]
  refine (matmul_cols_apply D hD none _ W p q).trans ?_
  refine Finset.sum_congr rfl fun k _ => congrArg (· * W (ix2 k q)) ?_
  show max (y (ix2 p k) + broadcastTo ⟨2, ![n, H]⟩ b hb (ix2 p k)) (FloatOps.ofBits (F := Ideal) .f32 0x00000000#32) = _
  rw [broadcastTo_1b_ab_apply b hb p k, ofBits_zero]

/-- The kernel's spelling with the output bias: the same, then the output's bias row over the rows. -/
theorem kernel_reluAffine (D : DotDims ⟨2, ![n, H]⟩ ⟨2, ![H, C]⟩ ⟨2, ![n, C]⟩) (hD : D = DotDims.plain n H C)
    (hlt : FTy.bits .bf16 < FTy.bits .f32) (hb : (⟨2, ![1, H]⟩ : Shape).Broadcasts ⟨2, ![n, H]⟩)
    (hc : (⟨2, ![1, C]⟩ : Shape).Broadcasts ⟨2, ![n, C]⟩)
    (y : FVec Ideal ⟨2, ![n, H]⟩ .f32) (b : FVec Ideal ⟨2, ![1, H]⟩ .f32) (W : FVec Ideal ⟨2, ![H, C]⟩ .bf16)
    (c : FVec Ideal ⟨2, ![1, C]⟩ .f32) :
    addf (matmul D none
        (truncf .bf16 (maximumf (addf y (broadcastTo ⟨2, ![n, H]⟩ b hb))
          (broadcast ⟨2, ![n, H]⟩ (FloatOps.ofBits (F := Ideal) .f32 0x00000000#32))) hlt)
        W (constant ⟨2, ![n, C]⟩ .f32 0x00000000#32)) (broadcastTo ⟨2, ![n, C]⟩ c hc)
      = reluAffine y b W c := by
  funext j
  obtain ⟨p, q, rfl⟩ : ∃ (p : Fin n) (q : Fin C), j = ix2 p q := ⟨j 0, j 1, eq_ix2 j⟩
  rw [reluAffine_apply]
  refine congrArg₂ (· + ·) ?_ (broadcastTo_1b_ab_apply c hc p q)
  exact congrFun (kernel_reluLinear D hD hlt hb y b W) (ix2 p q)

/-- The host's spelling: bias, maximum with a splat of the float zero, product. -/
theorem host_reluLinear (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (y : FVec Ideal ⟨2, ![n, H]⟩ .f32) (b : FVec Ideal ⟨1, ![H]⟩ .f32) (W : FVec Ideal ⟨2, ![H, C]⟩ .f32) :
    Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W
      = reluLinear y (row b) W := by
  funext j
  obtain ⟨p, q, rfl⟩ : ∃ (p : Fin n) (q : Fin C), j = ix2 p q := ⟨j 0, j 1, eq_ix2 j⟩
  rw [reluLinear_apply]
  refine (dotGeneral_cols_apply D hD none .single _ W p q).trans ?_
  refine Finset.sum_congr rfl fun k _ => congrArg (· * W (ix2 k q)) ?_
  show max (y (ix2 p k) + broadcastInDim ⟨2, ![n, H]⟩ ![0, 1] h2 (broadcastInDim ⟨2, ![1, H]⟩ ![1] h1 b) (ix2 p k))
      (broadcastInDim ⟨2, ![n, H]⟩ ![] h0 (constant (F := Ideal) ⟨0, ![]⟩ .f32 0x00000000#32) (ix2 p k)) = _
  rw [bias_rows_apply b h1 h2 p k, zeros_apply]

/-- The host's spelling with the output bias. -/
theorem host_reluAffine (D : DotDims ⟨2, ![n, H]⟩ ⟨2, ![H, C]⟩ ⟨2, ![n, C]⟩) (hD : D = DotDims.plain n H C)
    (h1 : (⟨1, ![H]⟩ : Shape).BroadcastsInDim ⟨2, ![1, H]⟩ ![1])
    (h2 : (⟨2, ![1, H]⟩ : Shape).BroadcastsInDim ⟨2, ![n, H]⟩ ![0, 1])
    (h0 : (⟨0, ![]⟩ : Shape).BroadcastsInDim ⟨2, ![n, H]⟩ ![])
    (g1 : (⟨1, ![C]⟩ : Shape).BroadcastsInDim ⟨2, ![1, C]⟩ ![1])
    (g2 : (⟨2, ![1, C]⟩ : Shape).BroadcastsInDim ⟨2, ![n, C]⟩ ![0, 1])
    (y : FVec Ideal ⟨2, ![n, H]⟩ .f32) (b : FVec Ideal ⟨1, ![H]⟩ .f32) (W : FVec Ideal ⟨2, ![H, C]⟩ .f32)
    (c : FVec Ideal ⟨1, ![C]⟩ .f32) :
    addf (Host.dotGeneral D none
        (maximumf (addf y (broadcastInDim ⟨2, ![n, H]⟩ ![0, 1] h2 (broadcastInDim ⟨2, ![1, H]⟩ ![1] h1 b)))
          (broadcastInDim ⟨2, ![n, H]⟩ ![] h0 (constant (F := Ideal) ⟨0, ![]⟩ .f32 0x00000000#32))) W)
        (broadcastInDim ⟨2, ![n, C]⟩ ![0, 1] g2 (broadcastInDim ⟨2, ![1, C]⟩ ![1] g1 c))
      = reluAffine y (row b) W (row c) := by
  funext j
  obtain ⟨p, q, rfl⟩ : ∃ (p : Fin n) (q : Fin C), j = ix2 p q := ⟨j 0, j 1, eq_ix2 j⟩
  rw [reluAffine_apply]
  refine congrArg₂ (· + ·) ?_ (bias_rows_apply c g1 g2 p q)
  exact congrFun (host_reluLinear D hD h1 h2 h0 y b W) (ix2 p q)

end Gcn.LayerOps

end
-- ==== Proof.Dense.lean ====
/-
  The plain matrix product of an array of `n` rows with a weight matrix, entry by entry over the extended reals:
  entry `(r, q)` is `Σ_k x[r,k] · W[k,q]`. Like the layers of LibRowLayers.lean it reads row `r` of `x` only, so the
  product of a block of rows is the block of the product.
-/
import proofs.«135108_j67723044323358_1_alg».proof.Proof.LibRowLayers

noncomputable section

open scoped BigOperators

namespace Gcn.Dense

open Idealize.ShloMosaic Idealize.ShloMosaic.ValueIdx

variable {n K C : ℕ}

/-- `x · W` at entry `(r, q)`: `Σ_k x[r,k] · W[k,q]`. -/
def product (x : (⟨2, ![n, K]⟩ : Shape).Idx → EReal) (W : (⟨2, ![K, C]⟩ : Shape).Idx → EReal) :
    (⟨2, ![n, C]⟩ : Shape).Idx → EReal :=
  fun i => ∑ k : Fin K, x (ix2 (i 0) k) * W (ix2 k (i 1))

theorem product_apply (x : (⟨2, ![n, K]⟩ : Shape).Idx → EReal) (W : (⟨2, ![K, C]⟩ : Shape).Idx → EReal) (r : Fin n)
    (q : Fin C) : product x W (ix2 r q) = ∑ k : Fin K, x (ix2 r k) * W (ix2 k q) := rfl

/-- If block `X` of `m` rows holds at its row `p` the row `r` of the array `x`, the product of the block at `(p, q)` is the
    product of the array at `(r, q)`. -/
theorem product_block {m : ℕ} (x : (⟨2, ![n, K]⟩ : Shape).Idx → EReal) (X : (⟨2, ![m, K]⟩ : Shape).Idx → EReal)
    (W : (⟨2, ![K, C]⟩ : Shape).Idx → EReal) (p : Fin m) (r : Fin n) (hX : ∀ k : Fin K, X (ix2 p k) = x (ix2 r k))
    (q : Fin C) : product X W (ix2 p q) = product x W (ix2 r q) := by
  rw [product_apply, product_apply]
  exact Finset.sum_congr rfl fun k _ => by rw [hX k]

end Gcn.Dense

end
-- ==== Proof.Spec.lean ====
/-
  The network both programs compute, over the extended reals: a two-layer graph convolution followed by a row log-softmax.

  From the edge list (two rows of node numbers) both programs build the same index data with the same host operations: the
  source and target node of every edge followed by one self-loop per node (`rows`, `cols`), each node's in-degree as a
  scatter-add of ones (`deg`), `deg^(-1/2)` where the degree is positive and zero elsewhere (`dinv`), and per edge the product
  of that factor at its two ends (`norm`). One propagation step (`prop64`, `prop32`: the same operations at two widths) gathers
  the source node's row of a feature array for every edge, scales it by the edge's factor and scatter-adds it into the target
  node's row. The gathers and scatter-adds read node numbers that are arbitrary 32-bit integers; they are never opened here:
  the two programs apply the SAME operations to the SAME index data, so a propagation step is carried as one function of the
  feature array it is given.

  Between the propagation steps sit the dense stages, entry by entry (LibRowLayers.lean, Dense.lean): `x · W1`;
  `max (a + b1) 0 · W2`; and the logarithm of the row softmax of `a + b2`. `G` is the whole network.
-/
import proofs.«135108_j67723044323358_1_alg».proof.ReferenceIdeal
import proofs.«135108_j67723044323358_1_alg».proof.Proof.Gen.ReferenceIdeal
import proofs.«135108_j67723044323358_1_alg».proof.Proof.LibRowLayerOps
import proofs.«135108_j67723044323358_1_alg».proof.Proof.Dense

noncomputable section

namespace Cert.ReferenceIdeal.Net

open Cert.ReferenceIdeal Cert.ReferenceIdeal.Gen Idealize.ShloMosaic Idealize.ShloMosaic.ValueIdx

/-- An array of 32-bit integers, resp. of floats read as extended reals, of shape `s`. -/
abbrev IArr (s : Shape) : Type := IVec s 32
abbrev FArr (s : Shape) : Type := FVec Ideal s .f32

/-! ## The index data, from the edge list -/

/-- Every edge's source node, then every node once (its self-loop). -/
def rows (x1 : IArr S2x1600000) : IArr S1700000 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- Every edge's target node, then every node once. -/
def cols (x1 : IArr S2x1600000) : IArr S1700000 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- A node number below zero counted from the end of the node axis, the rest unchanged, as one column of start indices: the
    form a gather takes its indices in. -/
def wrap (v : IArr S1700000) : IArr S1700000x1 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The in-degree of every node, self-loop included: ones scatter-added at the target nodes. -/
def deg (x1 : IArr S2x1600000) : FArr S100000 :=
  Host.scatterAdd scatter_S100000_S1700000x1_S1700000_n_0_0_1 (broadcastInDim S100000 ![] bcast_S_S100000 (constant S_ .f32 0x00000000#32)) (broadcastInDim S1700000x1 ![0] bcast_S1700000_S1700000x1_0 (cols x1)) (broadcastInDim S1700000 ![] bcast_S_S1700000 (constant S_ .f32 0x3F800000#32))

/-- `deg^(-1/2)` where the degree is positive, zero elsewhere. -/
def dinv (x1 : IArr S2x1600000) : FArr S100000 :=
  select (cmpf (F := Ideal) .ogt (deg x1) (broadcastInDim S100000 ![] bcast_S_S100000 (constant S_ .f32 0x00000000#32))) (Host.powf (deg x1) (broadcastInDim S100000 ![] bcast_S_S100000 (constant S_ .f32 0xBF000000#32))) (broadcastInDim S100000 ![] bcast_S_S100000 (constant S_ .f32 0x00000000#32))

/-- Per edge, the product of a per-node factor `d` at the edge's two ends, the ends listed by `r` and `c`. -/
def normOf (d : FArr S100000) (r c : IArr S1700000) : FArr S1700000 :=
  mulf (Host.gather gather_S100000_S1700000x1_S1700000_n_0_n_n_0_1_1 d (wrap r)) (Host.gather gather_S100000_S1700000x1_S1700000_n_0_n_n_0_1_1 d (wrap c))

/-- Per edge, the product of `deg^(-1/2)` at the edge's source and at its target. -/
def norm (x1 : IArr S2x1600000) : FArr S1700000 :=
  normOf (dinv x1) (rows x1) (cols x1)

/-! ## One propagation step, at the two widths -/

/-- Gather each edge's source row of `h`, scale it by the edge's factor, scatter-add it into the edge's target row. -/
def prop64 (x1 : IArr S2x1600000) (h : FArr S100000x64) : FArr S100000x64 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (cols x1)) (mulf (Host.gather gather_S100000x64_S1700000x1_S1700000x64_1_0_n_n_0_1_164 h (wrap (rows x1))) (broadcastInDim S1700000x64 ![0, 1] bcast_S1700000x1_S1700000x64_0_1 (broadcastInDim S1700000x1 ![0] bcast_S1700000_S1700000x1_0 (norm x1))))

def prop32 (x1 : IArr S2x1600000) (h : FArr S100000x32) : FArr S100000x32 :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 (cols x1)) (mulf (Host.gather gather_S100000x32_S1700000x1_S1700000x32_1_0_n_n_0_1_132 h (wrap (rows x1))) (broadcastInDim S1700000x32 ![0, 1] bcast_S1700000x1_S1700000x32_0_1 (broadcastInDim S1700000x1 ![0] bcast_S1700000_S1700000x1_0 (norm x1))))

/-! ## The network -/

/-- `log_softmax (P (max (P (x · W1) + b1) 0 · W2) + b2)`, `P` the propagation step, the dense stages entry by entry. -/
def G (x0 : FArr S100000x128) (x1 : IArr S2x1600000) (x2 : FArr S128x64) (x3 : FArr S64) (x4 : FArr S64x32) (x5 : FArr S32) :
    FArr S100000x32 :=
  Gcn.Layers.logSoftmaxRows fun i =>
    prop32 x1 (Gcn.Layers.reluLinear (prop64 x1 (Gcn.Dense.product x0 x2)) (Gcn.LayerOps.row x3) x4) i
      + Gcn.LayerOps.row x5 (ix2 (0 : Fin 1) (i 1))

end Cert.ReferenceIdeal.Net

end
-- ==== Proof.LibLogSoftmaxRows.lean ====
/-
  The logarithm of a row softmax as the two programs spell it, for any number of rows and columns.

  Both take each row's maximum from −∞ (the kernel by a lane reduction that keeps its axis as one column, the host by a
  `reduce` followed by a maximum with a splat of −∞, which changes nothing), subtract it, exponentiate, sum along the row
  from zero, take the logarithm and subtract it. A fold of `max` from the bottom element over a row is the row's supremum,
  in any order; a sum from zero is the row's sum. So both are `Layers.logSoftmaxRows`.
-/
import proofs.«135108_j67723044323358_1_alg».proof.Proof.LibRowLayerOps

noncomputable section

open scoped BigOperators

namespace Gcn.SoftmaxOps

open Idealize.ShloMosaic Idealize.ShloMosaic.ValueIdx Gcn.Layers Gcn.LayerOps

variable {n C : ℕ}

/-- Whatever spells them: if `M` holds each row's maximum on every column and `T` the logarithm of the row's sum of
    `exp (z − M)`, then `(z − M) − T` is the logarithm of the row softmax. -/
theorem logSoftmax_of_parts (z M T : (⟨2, ![n, C]⟩ : Shape).Idx → EReal)
    (hM : ∀ (p : Fin n) (q : Fin C), M (ix2 p q) = rowMax z p)
    (hT : ∀ (p : Fin n) (q : Fin C), T (ix2 p q) = Ideal.log (∑ j : Fin C, Ideal.exp (z (ix2 p j) - M (ix2 p j)))) :
    subf (F := Ideal) (φ := .f32) (subf (F := Ideal) (φ := .f32) z M) T = logSoftmaxRows z := by
  funext j
  obtain ⟨p, q, rfl⟩ : ∃ (p : Fin n) (q : Fin C), j = ix2 p q := ⟨j 0, j 1, eq_ix2 j⟩
  rw [logSoftmaxRows_apply]
  show (z (ix2 p q) - M (ix2 p q)) - T (ix2 p q) = _
  rw [hM p q, hT p q]
  refine congrArg (fun s => (z (ix2 p q) - rowMax z p) - Ideal.log s) (Finset.sum_congr rfl fun j _ => ?_)
  rw [hM p j]

/-! ## The kernel's spelling -/

/-- A vector of per-row values kept as one column and spread over the columns: entry `(p, q)` is row `p`'s value. -/
theorem column_spread_apply (v : (⟨1, ![n]⟩ : Shape).Idx → EReal) (hsc : (⟨1, ![n]⟩ : Shape).ShapeCasts ⟨2, ![n, 1]⟩)
    (hbc : (⟨2, ![n, 1]⟩ : Shape).Broadcasts ⟨2, ![n, C]⟩) (p : Fin n) (q : Fin C) :
    broadcastTo ⟨2, ![n, C]⟩ (shapeCast ⟨2, ![n, 1]⟩ v hsc) hbc (ix2 p q) = v (ix1 p) :=
  (LaneRows.broadcastTo_col_apply _ hbc p q).trans (HostMax.shapeCast_col_apply v hsc (ix2 p (0 : Fin 1)) p rfl)

/-- The kernel's logarithm of a row softmax on a block. -/
theorem kernel_logSoftmaxRows (hr : (⟨2, ![n, C]⟩ : Shape).Reduces [1] ⟨1, ![n]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![n]⟩ : Shape).ShapeCasts ⟨2, ![n, 1]⟩) (hbc : (⟨2, ![n, 1]⟩ : Shape).Broadcasts ⟨2, ![n, C]⟩)
    (z : FVec Ideal ⟨2, ![n, C]⟩ .f32) :
    subf (subf z (broadcastTo ⟨2, ![n, C]⟩
        (shapeCast ⟨2, ![n, 1]⟩ (multiReduction .maximumf [1] ⟨1, ![n]⟩ z 0xFF800000#32 hr hφ hmax) hsc) hbc))
      (broadcastTo ⟨2, ![n, C]⟩ (log (shapeCast ⟨2, ![n, 1]⟩ (multiReduction .add [1] ⟨1, ![n]⟩
        (exp (subf z (broadcastTo ⟨2, ![n, C]⟩
          (shapeCast ⟨2, ![n, 1]⟩ (multiReduction .maximumf [1] ⟨1, ![n]⟩ z 0xFF800000#32 hr hφ hmax) hsc) hbc)))
        0x00000000#32 hr hφ hadd) hsc)) hbc)
      = logSoftmaxRows z := by
  refine logSoftmax_of_parts z _ _ (fun p q => ?_) (fun p q => ?_)
  · exact (column_spread_apply _ hsc hbc p q).trans (HostMax.multiReduction_rows z hr hφ hmax p)
  · refine (LaneRows.broadcastTo_col_apply _ hbc p q).trans ?_
    show Ideal.log (shapeCast ⟨2, ![n, 1]⟩ _ hsc (ix2 p (0 : Fin 1))) = _
    rw [HostMax.shapeCast_col_apply _ hsc (ix2 p (0 : Fin 1)) p rfl, LaneRows.multiReduction_add_rows _ _ hr hφ hadd p]
    rfl

/-! ## The host's spelling -/

/-- A vector of per-row values set as one column (`dims = [0]`) and repeated over the columns (`dims = [0, 1]`). -/
theorem column_bcast_apply (v : (⟨1, ![n]⟩ : Shape).Idx → EReal)
    (b1 : (⟨1, ![n]⟩ : Shape).BroadcastsInDim ⟨2, ![n, 1]⟩ ![0])
    (b2 : (⟨2, ![n, 1]⟩ : Shape).BroadcastsInDim ⟨2, ![n, C]⟩ ![0, 1]) (p : Fin n) (q : Fin C) :
    broadcastInDim ⟨2, ![n, C]⟩ ![0, 1] b2 (broadcastInDim ⟨2, ![n, 1]⟩ ![0] b1 v) (ix2 p q) = v (ix1 p) := by
  refine (broadcastInDim_apply _ b2 _ (ix2 p q) (ix2 p (0 : Fin 1)) fun ax => ?_).trans ?_
  · match ax with
    | ⟨0, _⟩ =>
      show p.val = if n = 1 then 0 else p.val
      split
      · have := p.isLt; omega
      · rfl
    | ⟨1, _⟩ => show (0 : ℕ) = if (1 : ℕ) = 1 then 0 else q.val; rw [if_pos rfl]
  · refine broadcastInDim_apply _ b1 v (ix2 p (0 : Fin 1)) (ix1 p) fun ax => ?_
    match ax with
    | ⟨0, _⟩ =>
      show p.val = if n = 1 then 0 else p.val
      split
      · have := p.isLt; omega
      · rfl

/-- The host's sum along each row, from zero. -/
theorem host_rowSum (x : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel) (p : Fin n) :
    Host.reduceAdd x (constant (F := Ideal) ⟨0, ![]⟩ .f32 0x00000000#32) hred hu (ix1 p) = ∑ k : Fin C, x (ix2 p k) := by
  refine (Ideal.hostReduceAdd_single hred hr x _ (ix1 p)).trans ?_
  have hf : (x ∘ hr.lift (ix1 p)) = fun k : Fin C => x (ix2 p k) :=
    funext fun k => congrArg x (HostMax.lift_rows hr p k)
  rw [show constant (F := Ideal) ⟨0, ![]⟩ .f32 0x00000000#32 (Shape.Idx.first hu) = (0 : EReal) from ofBits_zero, zero_add]
  exact congrArg (fun f => ∑ k : Fin C, f k) hf

/-- The host's maximum along each row, from −∞, then once more against a splat of −∞: the row's supremum. -/
theorem host_rowMax (z : FVec Ideal ⟨2, ![n, C]⟩ .f32) (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![]) (p : Fin n) :
    maximumf (broadcastInDim ⟨1, ![n]⟩ ![] b0 (constant (F := Ideal) ⟨0, ![]⟩ .f32 0xFF800000#32))
        (Host.reduce FloatOps.maximumf z (constant (F := Ideal) ⟨0, ![]⟩ .f32 0xFF800000#32) hred hu) (ix1 p)
      = rowMax z p := by
  show max (broadcastInDim ⟨1, ![n]⟩ ![] b0 (constant (F := Ideal) ⟨0, ![]⟩ .f32 0xFF800000#32) (ix1 p))
      (Host.reduce FloatOps.maximumf z (constant (F := Ideal) ⟨0, ![]⟩ .f32 0xFF800000#32) hred hu (ix1 p)) = _
  rw [HostMax.reduce_rows z (constant (F := Ideal) ⟨0, ![]⟩ .f32 0xFF800000#32) (fun _ => ofBits_neg_inf) hred hr hu p,
    (broadcastInDim_apply _ b0 _ (ix1 p) ix0 fun ax => ax.elim0).trans ofBits_neg_inf]
  exact max_eq_right bot_le

/-- The host's logarithm of a row softmax on the whole array. -/
theorem host_logSoftmaxRows (hred : (⟨2, ![n, C]⟩ : Shape).ReducesTo [1] ⟨1, ![n]⟩)
    (hr : (⟨2, ![n, C]⟩ : Shape).Reduces [1] ⟨1, ![n]⟩) (hu : 0 < (⟨0, ![]⟩ : Shape).numel)
    (b0 : (⟨0, ![]⟩ : Shape).BroadcastsInDim ⟨1, ![n]⟩ ![])
    (b1 : (⟨1, ![n]⟩ : Shape).BroadcastsInDim ⟨2, ![n, 1]⟩ ![0])
    (b2 : (⟨2, ![n, 1]⟩ : Shape).BroadcastsInDim ⟨2, ![n, C]⟩ ![0, 1])
    (z : FVec Ideal ⟨2, ![n, C]⟩ .f32) :
    subf (subf z (broadcastInDim ⟨2, ![n, C]⟩ ![0, 1] b2 (broadcastInDim ⟨2, ![n, 1]⟩ ![0] b1
        (maximumf (broadcastInDim ⟨1, ![n]⟩ ![] b0 (constant (F := Ideal) ⟨0, ![]⟩ .f32 0xFF800000#32))
          (Host.reduce FloatOps.maximumf z (constant (F := Ideal) ⟨0, ![]⟩ .f32 0xFF800000#32) hred hu)))))
      (broadcastInDim ⟨2, ![n, C]⟩ ![0, 1] b2 (Host.log (broadcastInDim ⟨2, ![n, 1]⟩ ![0] b1
        (Host.reduceAdd (Host.exp (subf z (broadcastInDim ⟨2, ![n, C]⟩ ![0, 1] b2 (broadcastInDim ⟨2, ![n, 1]⟩ ![0] b1
          (maximumf (broadcastInDim ⟨1, ![n]⟩ ![] b0 (constant (F := Ideal) ⟨0, ![]⟩ .f32 0xFF800000#32))
            (Host.reduce FloatOps.maximumf z (constant (F := Ideal) ⟨0, ![]⟩ .f32 0xFF800000#32) hred hu))))))
          (constant (F := Ideal) ⟨0, ![]⟩ .f32 0x00000000#32) hred hu))))
      = logSoftmaxRows z := by
  refine logSoftmax_of_parts z _ _ (fun p q => ?_) (fun p q => ?_)
  · exact (column_bcast_apply _ b1 b2 p q).trans (host_rowMax z hred hr hu b0 p)
  · refine (broadcastInDim_apply _ b2 _ (ix2 p q) (ix2 p (0 : Fin 1)) fun ax => ?_).trans ?_
    · match ax with
      | ⟨0, _⟩ =>
        show p.val = if n = 1 then 0 else p.val
        split
        · have := p.isLt; omega
        · rfl
      | ⟨1, _⟩ => show (0 : ℕ) = if (1 : ℕ) = 1 then 0 else q.val; rw [if_pos rfl]
    · show Ideal.log (broadcastInDim (s := ⟨1, ![n]⟩) ⟨2, ![n, 1]⟩ ![0] b1 _ (ix2 p (0 : Fin 1))) = _
      rw [broadcastInDim_apply _ b1 _ (ix2 p (0 : Fin 1)) (ix1 p) (fun ax => by
        match ax with
        | ⟨0, _⟩ =>
          show p.val = if n = 1 then 0 else p.val
          split
          · have := p.isLt; omega
          · rfl), host_rowSum _ hred hr hu p]
      rfl

end Gcn.SoftmaxOps

end
-- ==== Proof.RefValue.lean ====
/-
  The reference's result is the network `G`.

  The reference program is one line of host operations; its run leaves the result buffer at their composed term of the
  argument arrays. That term is, operation for operation: the product `x · W1` (a `dot_general`), a propagation step, the
  first bias through two broadcasts, a maximum with a splat of zero, the product with `W2`, a propagation step, the
  second bias, and the logarithm of the row softmax spelt out (each row's maximum from −∞, once more against a splat of
  −∞, the differences, their exponentials summed from zero, the logarithm, the difference). The index data are rebuilt
  for the second layer by the same operations from the same edge list: the same terms. `hostNet` names that composition
  over the propagation steps of Spec.lean, and the run's term unfolds to it.

  Entry by entry the three dense stages are the layers of LibRowLayers.lean / Dense.lean (a `dot_general` with plain
  dimension numbers is the sum of products; a maximum against −∞ changes nothing; a fold of `max` over a row from −∞ is
  the row's supremum): `hostNet = G`. No entry needs to be finite: nothing is moved across a sum.
-/
import proofs.«135108_j67723044323358_1_alg».proof.Proof.ReferenceRun
import proofs.«135108_j67723044323358_1_alg».proof.Proof.Spec
import proofs.«135108_j67723044323358_1_alg».proof.Proof.LibLogSoftmaxRows

noncomputable section

namespace Cert.ReferenceIdeal.Net

open Cert.ReferenceIdeal Cert.ReferenceIdeal.Gen Idealize.ShloMosaic Idealize.ShloMosaic.ValueIdx Idealize.SL.Sem

/-! ## The reference's spelling -/

/-- The logarithm of a row softmax as the reference spells it. -/
def lsmHost (z : FArr S100000x32) : FArr S100000x32 :=
  subf (subf z (broadcastInDim S100000x32 ![0, 1] bcast_S100000x1_S100000x32_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x32_S100000_d1 h_S_))))) (broadcastInDim S100000x32 ![0, 1] bcast_S100000x1_S100000x32_0_1 (Host.log (broadcastInDim S100000x1 ![0] bcast_S100000_S100000x1_0 (Host.reduceAdd (Host.exp (subf z (broadcastInDim S100000x32 ![0, 1] bcast_S100000x1_S100000x32_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x32_S100000_d1 h_S_)))))) (constant S_ .f32 0x00000000#32) reducesTo_S100000x32_S100000_d1 h_S_))))

/-- The second dense stage as the reference spells it: bias, maximum with a splat of zero, product. -/
def dense2Host (a : FArr S100000x64) (x3 : FArr S64) (x4 : FArr S64x32) : FArr S100000x32 :=
  Host.dotGeneral dot_S100000x64_S64x32_S100000x32_1_0_0_1_n_n none (maximumf (addf a (broadcastInDim S100000x64 ![0, 1] bcast_S1x64_S100000x64_0_1 (broadcastInDim S1x64 ![1] bcast_S64_S1x64_1 x3))) (broadcastInDim S100000x64 ![] bcast_S_S100000x64 (constant S_ .f32 0x00000000#32))) x4

/-- The reference's whole composition. -/
def hostNet (x0 : FArr S100000x128) (x1 : IArr S2x1600000) (x2 : FArr S128x64) (x3 : FArr S64) (x4 : FArr S64x32)
    (x5 : FArr S32) : FArr S100000x32 :=
  lsmHost (addf (prop32 x1 (dense2Host (prop64 x1 (Host.dotGeneral dot_S100000x128_S128x64_S100000x64_1_0_0_1_n_n none x0 x2)) x3 x4)) (broadcastInDim S100000x32 ![0, 1] bcast_S1x32_S100000x32_0_1 (broadcastInDim S1x32 ![1] bcast_S32_S1x32_1 x5)))

set_option maxRecDepth 65536 in
/-- The run's term of the arguments is that composition: the same operations, named. With every name unfolded on both
    sides the two terms are the same term. -/
theorem res_eq_hostNet (m : (ℓ : Loc nD τ sig) → Buf (Elt Ideal) ℓ) (c : Dev nD) :
    Cert.ReferenceIdeal.ValueP.res_main_v95 (F := Ideal) m c
      = hostNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v95 hostNet lsmHost dense2Host prop32 prop64 norm normOf dinv deg wrap rows cols
  with_reducible rfl

/-- The first product. -/
theorem dense1_eq (x0 : FArr S100000x128) (x2 : FArr S128x64) :
    Host.dotGeneral dot_S100000x128_S128x64_S100000x64_1_0_0_1_n_n none x0 x2 = Gcn.Dense.product x0 x2 := by
  funext j
  obtain ⟨p, q, rfl⟩ : ∃ (p : Fin 100000) (q : Fin 64), j = ix2 p q := ⟨j 0, j 1, eq_ix2 j⟩
  rw [Gcn.Dense.product_apply]
  exact Cert.Lib.DotColsHost.dotGeneral_cols_apply dot_S100000x128_S128x64_S100000x64_1_0_0_1_n_n rfl none .single x0 x2 p q

/-- The second dense stage. -/
theorem dense2_eq (a : FArr S100000x64) (x3 : FArr S64) (x4 : FArr S64x32) :
    dense2Host a x3 x4 = Gcn.Layers.reluLinear a (Gcn.LayerOps.row x3) x4 :=
  Gcn.LayerOps.host_reluLinear dot_S100000x64_S64x32_S100000x32_1_0_0_1_n_n rfl bcast_S64_S1x64_1
    bcast_S1x64_S100000x64_0_1 bcast_S_S100000x64 a x3 x4

/-- The logarithm of the row softmax. -/
theorem lsmHost_eq (z : FArr S100000x32) : lsmHost z = Gcn.Layers.logSoftmaxRows z :=
  Gcn.SoftmaxOps.host_logSoftmaxRows reducesTo_S100000x32_S100000_d1 (by decide) h_S_ bcast_S_S100000
    bcast_S100000_S100000x1_0 bcast_S100000x1_S100000x32_0_1 z

/-- Adding the twice-broadcast bias vector is adding its entry of the same column, for any array. -/
theorem bias_add (P : FArr S100000x32) (x5 : FArr S32) :
    addf P (broadcastInDim S100000x32 ![0, 1] bcast_S1x32_S100000x32_0_1 (broadcastInDim S1x32 ![1] bcast_S32_S1x32_1 x5))
      = (fun i => P i + Gcn.LayerOps.row x5 (ix2 (0 : Fin 1) (i 1)) : (⟨2, ![100000, 32]⟩ : Shape).Idx → EReal) := by
  funext i
  obtain ⟨p, q, rfl⟩ : ∃ (p : Fin 100000) (q : Fin 32), i = ix2 p q := ⟨i 0, i 1, eq_ix2 i⟩
  exact congrArg (P (ix2 p q) + ·) (Gcn.LayerOps.bias_rows_apply x5 bcast_S32_S1x32_1 bcast_S1x32_S100000x32_0_1 p q)

/-- The reference's composition is the network. -/
theorem hostNet_eq_G (x0 : FArr S100000x128) (x1 : IArr S2x1600000) (x2 : FArr S128x64) (x3 : FArr S64)
    (x4 : FArr S64x32) (x5 : FArr S32) : hostNet x0 x1 x2 x3 x4 x5 = G x0 x1 x2 x3 x4 x5 := by
  unfold hostNet G
  rw [lsmHost_eq, dense1_eq, dense2_eq, bias_add]

/-- So the reference's result term is the network of the argument arrays. -/
theorem res_eq_G (m : (ℓ : Loc nD τ sig) → Buf (Elt Ideal) ℓ) (c : Dev nD) :
    Cert.ReferenceIdeal.ValueP.res_main_v95 (F := Ideal) m c
      = G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (res_eq_hostNet m c).trans (hostNet_eq_G _ _ _ _ _ _)

end Cert.ReferenceIdeal.Net

end
-- ==== Proof.KernelRun.lean ====
/-
  The idealized kernel's run with its result named.

  @main of the kernel's program is eight segments: three stretches of host operations, each followed by a pallas_call
  region. The generated frame runs them in order and carries, from boundary to boundary, the contents of every buffer
  (`Gen.W0` … `Gen.W8`: a stretch applies its operations to the contents it finds; a region leaves each of its arrays at what
  its blocks' write-backs leave and every other buffer as it found it). Its statement keeps, of the last boundary's
  contents `W8`, only that the argument arrays are as launched. Here the same run is stated with the result buffer too:
  in every final state the result array holds `W8` at the result's buffer. What that is as a function of the arguments is
  the business of the modules that read the regions' arrays and walk the boundaries.
-/
import proofs.«135108_j67723044323358_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one, which takes unfolding plain
-- definitions in a metavariable's type
set_option backward.isDefEq.respectTransparency.types false in
/-- Every weakly fair execution of @main terminates, nothing faulting, with the result array at the last boundary's
    contents of its buffer and the argument arrays as launched: the segments' run, the last thread state (every unscoped
    buffer at `W8`) read against the final state at the result's buffer and at each argument's. -/
theorem run_main : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.Region0.lean ====
/-
  Region 0 of the kernel's program: the first dense stage, `x · W1`.

  The region walks the 100000 rows of `x` in 20 blocks of 5000 rows; at grid point `t` it loads block `t` of `x` and the
  whole weight matrix, multiplies them (rounding both to a narrower float format first, which is the identity on the
  extended reals) into the zero accumulator, and stores the 5000 × 64 product, which is written back as block `t` of
  the output array. Entry `(p, q)` of a block's product reads row `p` of the block, which is row `5000 t + p` of `x`: so what
  point `t` writes back is block `t` of the whole product `x · W1`, the 20 blocks tile the output array, and the array
  ends holding `x · W1` — for whatever contents `V` the region finds in its operands' buffers.
-/
import proofs.«135108_j67723044323358_1_alg».proof.Proof.Gen.KernelIdeal.Frame
import proofs.«135108_j67723044323358_1_alg».proof.Proof.Dense
import proofs.«135108_j67723044323358_1_alg».proof.Proof.LibDotCols
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of the two loaded blocks, entry by entry. -/
theorem payload_eq (x0 : Vec Ideal S5000x128 .f32) (x1 : Vec Ideal S128x64 .f32) :
    k0_pay1 x0 x1 = Gcn.Dense.product x0 x1 := by
  funext j
  obtain ⟨p, q, rfl⟩ : ∃ (p : Fin 5000) (q : Fin 64), j = ix2 p q := ⟨j 0, j 1, eq_ix2 j⟩
  rw [Gcn.Dense.product_apply]
  exact Cert.Lib.DotCols.matmul_cols_apply dot_S5000x128_S128x64_S5000x64_1_0_0_1_n_n rfl none
    (truncf .bf16 x0 bitsLt_bf16_f32) (truncf .bf16 x1 bitsLt_bf16_f32) p q

/-- The printed index maps, decided over the 20 grid points: the row blocks move with the point, the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the input block at point `t` is row `5000 t + p` of the input array. -/
theorem iblk_x (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at any point is the weight array. -/
theorem iblk_w (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * q.val = q.val; rw [e3]; omega

/-- An entry of a product of blocks, when the left block's row is a row of an array and the right block is an array. -/
theorem product_entry (X : Vec Ideal S5000x128 .f32) (Wb : Vec Ideal S128x64 .f32) (x : S100000x128.Idx → EReal)
    (W : S128x64.Idx → EReal) (p : Fin 5000) (q : Fin 64) (r : Fin 100000)
    (hX : ∀ k : Fin 128, X (ix2 p k) = x (ix2 r k)) (hW : ∀ k : Fin 128, Wb (ix2 k q) = W (ix2 k q)) :
    Gcn.Dense.product X Wb (ix2 p q) = Gcn.Dense.product x W (ix2 r q) := by
  rw [Gcn.Dense.product_apply, Gcn.Dense.product_apply]
  exact Finset.sum_congr rfl fun k _ => by rw [hX k, hW k]

/-- What point `t` writes back is block `t` of the whole product. -/
theorem flushed_eq (c : Dev nD) (t : Fin cfg0.N) :
    (dat0 V c).flushed 2 t
      = ((cfg0.win 2).blk t).view.read (Elt Ideal) (Gcn.Dense.product (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  rw [payload_eq]
  obtain ⟨-, -, -, -, e4, e5⟩ := idx_facts t
  have hN : cfg0.N = 20 := N_0
  funext j
  obtain ⟨p, q, rfl⟩ : ∃ (p : Fin 5000) (q : Fin 64), j = ix2 p q := ⟨j 0, j 1, eq_ix2 j⟩
  have hr : t.val * 5000 + p.val < 100000 := by have := t.isLt; have := p.isLt; omega
  have hemb : ((cfg0.win 2).blk t).view.emb (ix2 p q) = ix2 (⟨t.val * 5000 + p.val, hr⟩ : Fin 100000) q := by
    funext a
    apply Fin.ext
    match a with
    | ⟨0, _⟩ => show win0_2.index t (0 : Fin 2) * 5000 + 1 * p.val = t.val * 5000 + p.val; rw [e4]; omega
    | ⟨1, _⟩ => show win0_2.index t (1 : Fin 2) * 64 + 1 * q.val = q.val; rw [e5]; omega
  rw [View.read_apply]
  refine Eq.trans ?_ (congrArg (Gcn.Dense.product (V c main_arg0) (V c main_arg2)) hemb.symm)
  exact product_entry (iblk0 V c 0 t) (iblk0 V c 1 t) (V c main_arg0) (V c main_arg2) p q ⟨t.val * 5000 + p.val, hr⟩
    (fun k => iblk_x V c t p k ⟨t.val * 5000 + p.val, hr⟩ rfl) (fun k => iblk_w V c t k q)

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- Every row of the output array is in the block of the point its number divided by 5000 names. -/
theorem cover (i : S100000x64.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- THE ARRAY after region 0: the whole product of the two operand arrays as the region found them. -/
theorem array (c : Dev nD) :
    (dat0 V c).arrAt 2 cfg0.N = Gcn.Dense.product (V c main_arg0) (V c main_arg2) :=
  (dat0 V c).arrAt_eq_of_cover 2 _ (fun t _ => flushed_eq V c t) cover

end Cert.KernelIdeal.Region0

end
-- ==== Proof.Region1.lean ====
/-
  The second layer's dense half, from blocks of rows to the whole array.

  The region walks the 100000 rows of the aggregated features `y` in ten blocks of 10000 rows. At each block it adds
  the one-row bias `b`, takes the maximum with zero and multiplies by the 64 × 32 weight `W`, rounding to a narrower
  float format on the way into the product (the identity over the extended reals). Entry `(r, q)` of
  `max (y + b) 0 · W` reads row `r` of `y` only, so the layer of a block of rows is the block of the layer of the
  whole array; the ten blocks tile the rows, so after the region the output array is that layer of the whole input:
      out[r, q] = Σ_k max (y[r, k] + b[0, k]) 0 · W[k, q]      for every row r < 100000 and column q < 32,
  for whatever contents `V` the region finds in its operands' buffers. Nothing here needs the entries to be finite.
-/
import proofs.«135108_j67723044323358_1_alg».proof.Proof.Gen.KernelIdeal.Frame
import proofs.«135108_j67723044323358_1_alg».proof.Proof.LibRowLayerOps
import Idealize.ShloMosaic.Lib.Pipeline.Value
import Idealize.ShloMosaic.Lib.ValueIdx

noncomputable section

open scoped BigOperators

namespace Cert.KernelIdeal.Region1

open Cert.KernelIdeal Cert.KernelIdeal.Gen Idealize.ShloMosaic Idealize.ShloMosaic.ValueIdx
open Idealize.ShloMosaic.TcCoe Idealize.SL.Sem
open Idealize.ShloMosaic.Pipeline (Dat)

/-- On a block `x0` of 10000 rows, a bias row `x1` and a weight `x2`, the body computes `max (x0 + x1) 0 · x2`:
    a reshape to the same shape changes nothing, the bias row is repeated over the rows, the float zero word denotes
    zero, a change of float format is the identity, and a product into the zero accumulator is the sum of products. -/
theorem pay_eq (x0 : Vec Ideal S10000x64 .f32) (x1 : Vec Ideal S1x64 .f32) (x2 : Vec Ideal S64x32 .f32) :
    k1_pay1 x0 x1 x2 = Gcn.Layers.reluLinear x0 x1 x2 := by
  funext j
  obtain ⟨p, q, rfl⟩ : ∃ (p : Fin 10000) (q : Fin 32), j = ix2 p q := ⟨j 0, j 1, eq_ix2 j⟩
  rw [Gcn.Layers.reluLinear_apply]
  unfold k1_pay1
  refine (Cert.Lib.DotCols.matmul_cols_apply dot_S10000x64_S64x32_S10000x32_1_0_0_1_n_n rfl none _ _ p q).trans ?_
  refine Finset.sum_congr rfl fun k _ => congrArg (· * x2 (ix2 k q)) ?_
  simp only [shapeCast_self]
  show max (x0 (ix2 p k) + broadcastTo S10000x64 x1 broadcasts_S1x64_S10000x64 (ix2 p k))
      (FloatOps.ofBits (F := Ideal) .f32 0x00000000#32) = _
  rw [broadcastTo_1b_ab_apply x1 _ p k, Gcn.LayerOps.ofBits_zero]

variable (V : (c : Dev nD) → (b : Ref sig .tc) → Buf (Elt Ideal) ((c : Thread nD τ).loc b))

theorem hz : (![0, 0] : Fin 2 → Nat) = fun _ => 0 := funext fun a => by fin_cases a <;> rfl

/-- The block indices at grid point `t`, decided over the ten points: the input rows and the output rows move with
    `t` along axis 0; the bias row and the weight stay at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the input block at point `t` is row `10000 t + p` of the input array. -/
theorem blk_rows (c : Dev nD) (t : Fin cfg1.N) (p : Fin 10000) (k : Fin 64) (r : Fin 100000)
    (hr : r.val = t.val * 10000 + p.val) :
    (iblk1 V c 0 t : Vec Ideal S10000x64 .f32) (ix2 p k) = (V c main_v45 : S100000x64.Idx → EReal) (ix2 r k) := by
  obtain ⟨e0, e1, -⟩ := idx_facts t
  unfold iblk1; rw [View.read_apply]
  show V c main_v45 _ = V c main_v45 _
  congr 1; funext a; apply Fin.ext
  match a with
  | ⟨0, _⟩ => show win1_0.index t (0 : Fin 2) * 10000 + 1 * p.val = r.val; omega
  | ⟨1, _⟩ => show win1_0.index t (1 : Fin 2) * 64 + 1 * k.val = k.val; omega

/-- The bias window's block at every point is the whole one-row bias array. -/
theorem blk_bias (c : Dev nD) (t : Fin cfg1.N) : (iblk1 V c 1 t : Vec Ideal S1x64 .f32) = V c main_v46 := by
  obtain ⟨-, -, e2, e3, -⟩ := idx_facts t
  funext y; unfold iblk1; rw [View.read_apply]
  show V c main_v46 _ = V c main_v46 _
  congr 1; funext a; apply Fin.ext
  match a with
  | ⟨0, _⟩ => show win1_1.index t (0 : Fin 2) * 1 + 1 * (y 0).val = (y 0).val; omega
  | ⟨1, _⟩ => show win1_1.index t (1 : Fin 2) * 64 + 1 * (y 1).val = (y 1).val; omega

/-- The weight window's block at every point is the whole weight array. -/
theorem blk_weight (c : Dev nD) (t : Fin cfg1.N) : (iblk1 V c 2 t : Vec Ideal S64x32 .f32) = V c main_arg4 := by
  obtain ⟨-, -, -, -, e4, e5, -⟩ := idx_facts t
  funext y; unfold iblk1; rw [View.read_apply]
  show V c main_arg4 _ = V c main_arg4 _
  congr 1; funext a; apply Fin.ext
  match a with
  | ⟨0, _⟩ => show win1_2.index t (0 : Fin 2) * 64 + 1 * (y 0).val = (y 0).val; omega
  | ⟨1, _⟩ => show win1_2.index t (1 : Fin 2) * 32 + 1 * (y 1).val = (y 1).val; omega

/-- What point `t` writes back is block `t` of the layer of the whole input array: entry `(p, q)` of the body's
    result on the block is entry `(10000 t + p, q)` of `max (y + b) 0 · W`. -/
theorem flushed_eq (c : Dev nD) (t : Fin cfg1.N) :
    (dat1 (F := Ideal) V c).flushed 3 t
      = ((cfg1.win 3).blk t).view.read (Elt Ideal)
          (Gcn.Layers.reluLinear (V c main_v45) (V c main_v46) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz,
    View.ld_unit_zero (S := S64x32) hz]
  obtain ⟨-, -, -, -, -, -, e6, e7⟩ := idx_facts t
  have hN : cfg1.N = 10 := N_1
  have ht : t.val < 10 := hN ▸ t.isLt
  funext j
  rw [View.read_apply]
  revert j
  show ∀ j : S10000x32.Idx, k1_pay1 (iblk1 V c 0 t) (iblk1 V c 1 t) (iblk1 V c 2 t) j
    = Gcn.Layers.reluLinear (V c main_v45) (V c main_v46) (V c main_arg4) (((cfg1.win 3).blk t).view.emb j)
  intro j
  obtain ⟨p, q, rfl⟩ : ∃ (p : Fin 10000) (q : Fin 32), j = ix2 p q := ⟨j 0, j 1, eq_ix2 j⟩
  have hemb : ((cfg1.win 3).blk t).view.emb (ix2 p q)
      = (ix2 (⟨t.val * 10000 + p.val, by omega⟩ : Fin 100000) q : S100000x32.Idx) := by
    funext a; apply Fin.ext
    match a with
    | ⟨0, _⟩ => show win1_3.index t (0 : Fin 2) * 10000 + 1 * p.val = t.val * 10000 + p.val; omega
    | ⟨1, _⟩ => show win1_3.index t (1 : Fin 2) * 32 + 1 * q.val = q.val; omega
  rw [hemb]
  refine (congrFun (pay_eq (iblk1 V c 0 t) (iblk1 V c 1 t) (iblk1 V c 2 t)) (ix2 p q)).trans ?_
  rw [blk_bias V c t, blk_weight V c t]
  exact Gcn.Layers.reluLinear_block _ _ _ _ p _ (fun k => blk_rows V c t p k _ rfl) q

/-- An index of the output array is in point `t`'s block iff each coordinate is in the block's range on its axis. -/
theorem mem_blk (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v47).slice (win1_3.rect t)).set ↔ _
  rw [View.set_slice_whole, Rect.mem_set_unit]
  exact Iff.rfl

/-- The ten blocks tile the output array: row `r` is in the block of point `r / 10000`, and every point writes back. -/
theorem cover (i : S100000x32.Idx) :
    ∃ t : Fin cfg1.N, (cfg1.win 3).flush t = true ∧ i ∈ ((cfg1.win 3).blk t).view.set := by
  have hN : cfg1.N = 10 := N_1
  have hi0 : (i 0).val < 100000 := (i 0).isLt
  have hi1 : (i 1).val < 32 := (i 1).isLt
  let t : Fin cfg1.N := ⟨(i 0).val / 10000, by omega⟩
  obtain ⟨-, -, -, -, -, -, e6, e7⟩ := idx_facts t
  have ht : t.val = (i 0).val / 10000 := rfl
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 32 ≤ (i 1).val ∧ (i 1).val < win1_3.index t (1 : Fin 2) * 32 + 32
    omega

/-- AFTER THE REGION the output array is `max (y + b) 0 · W` of the whole input array, whatever it held before. -/
theorem array (c : Dev nD) :
    (dat1 (F := Ideal) V c).arrAt 3 cfg1.N
      = Gcn.Layers.reluLinear (V c main_v45) (V c main_v46) (V c main_arg4) :=
  (dat1 V c).arrAt_eq_of_cover 3 _ (fun t _ => flushed_eq V c t) cover

end Cert.KernelIdeal.Region1

end
-- ==== Proof.Region2.lean ====
/-
  The output layer's last step, from blocks of rows to the whole array.

  The region walks the 100000 rows of the aggregated logits `z` in ten blocks of 10000 rows. At each block it adds the
  one-row bias `b` and takes the logarithm of each row's softmax: the row's maximum is subtracted, the differences are
  exponentiated and summed along the row, and the logarithm of that sum is subtracted. Entry `(r, q)` of the result
  reads row `r` of `z + b` only, so the log-softmax of a block of rows is the block of the log-softmax of the whole
  array; the ten blocks tile the rows, so after the region the output array is, for every row r < 100000 and column q < 32,
      out[r, q] = (u[r, q] − max_j u[r, j]) − log Σ_j exp (u[r, j] − max_j u[r, j]),     u[r, j] = z[r, j] + b[0, j],
  for whatever contents `V` the region finds in its operands' buffers. Nothing here needs the entries to be finite.
-/
import proofs.«135108_j67723044323358_1_alg».proof.Proof.Gen.KernelIdeal.Frame
import proofs.«135108_j67723044323358_1_alg».proof.Proof.LibLogSoftmaxRows
import Idealize.ShloMosaic.Lib.Pipeline.Value
import Idealize.ShloMosaic.Lib.ValueIdx

noncomputable section

open scoped BigOperators

namespace Cert.KernelIdeal.Region2

open Cert.KernelIdeal Cert.KernelIdeal.Gen Idealize.ShloMosaic Idealize.ShloMosaic.ValueIdx
open Idealize.ShloMosaic.TcCoe Idealize.SL.Sem
open Idealize.ShloMosaic.Pipeline (Dat)

/-- An array plus a one-row bias repeated over its rows, entry by entry: `(y + b)[r, q] = y[r, q] + b[0, q]`. -/
abbrev addRow {n C : ℕ} (y : (⟨2, ![n, C]⟩ : Shape).Idx → EReal) (b : (⟨2, ![1, C]⟩ : Shape).Idx → EReal) :
    (⟨2, ![n, C]⟩ : Shape).Idx → EReal := fun i => y i + b (ix2 (0 : Fin 1) (i 1))

/-- On a block `x0` of 10000 rows and a bias row `x1`, the body computes the row-wise log-softmax of `x0 + x1`:
    a reshape to the same shape changes nothing and the bias row is repeated over the rows. -/
theorem pay_eq (x0 : Vec Ideal S10000x32 .f32) (x1 : Vec Ideal S1x32 .f32) :
    k2_pay1 x0 x1 = Gcn.Layers.logSoftmaxRows (addRow x0 x1) := by
  unfold k2_pay1
  simp only [shapeCast_self]
  refine (Gcn.SoftmaxOps.kernel_logSoftmaxRows reduces_S10000x32_S10000 (.inl rfl) rfl rfl shapeCasts_S10000_S10000x1
    broadcasts_S10000x1_S10000x32 (addf x0 (broadcastTo S10000x32 x1 broadcasts_S1x32_S10000x32))).trans ?_
  refine congrArg Gcn.Layers.logSoftmaxRows (funext fun i => ?_)
  obtain ⟨p, q, rfl⟩ : ∃ (p : Fin 10000) (q : Fin 32), i = ix2 p q := ⟨i 0, i 1, eq_ix2 i⟩
  show x0 (ix2 p q) + broadcastTo S10000x32 x1 broadcasts_S1x32_S10000x32 (ix2 p q)
    = x0 (ix2 p q) + x1 (ix2 (0 : Fin 1) q)
  rw [broadcastTo_1b_ab_apply x1 _ p q]

variable (V : (c : Dev nD) → (b : Ref sig .tc) → Buf (Elt Ideal) ((c : Thread nD τ).loc b))

theorem hz : (![0, 0] : Fin 2 → Nat) = fun _ => 0 := funext fun a => by fin_cases a <;> rfl

/-- The block indices at grid point `t`, decided over the ten points: the input rows and the output rows move with
    `t` along axis 0; the bias row stays at block `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the input block at point `t` is row `10000 t + p` of the input array. -/
theorem blk_rows (c : Dev nD) (t : Fin cfg2.N) (p : Fin 10000) (k : Fin 32) (r : Fin 100000)
    (hr : r.val = t.val * 10000 + p.val) :
    (iblk2 V c 0 t : Vec Ideal S10000x32 .f32) (ix2 p k) = (V c main_v60 : S100000x32.Idx → EReal) (ix2 r k) := by
  obtain ⟨e0, e1, -⟩ := idx_facts t
  unfold iblk2; rw [View.read_apply]
  show V c main_v60 _ = V c main_v60 _
  congr 1; funext a; apply Fin.ext
  match a with
  | ⟨0, _⟩ => show win2_0.index t (0 : Fin 2) * 10000 + 1 * p.val = r.val; omega
  | ⟨1, _⟩ => show win2_0.index t (1 : Fin 2) * 32 + 1 * k.val = k.val; omega

/-- The bias window's block at every point is the whole one-row bias array. -/
theorem blk_bias (c : Dev nD) (t : Fin cfg2.N) : (iblk2 V c 1 t : Vec Ideal S1x32 .f32) = V c main_v61 := by
  obtain ⟨-, -, e2, e3, -⟩ := idx_facts t
  funext y; unfold iblk2; rw [View.read_apply]
  show V c main_v61 _ = V c main_v61 _
  congr 1; funext a; apply Fin.ext
  match a with
  | ⟨0, _⟩ => show win2_1.index t (0 : Fin 2) * 1 + 1 * (y 0).val = (y 0).val; omega
  | ⟨1, _⟩ => show win2_1.index t (1 : Fin 2) * 32 + 1 * (y 1).val = (y 1).val; omega

/-- What point `t` writes back is block `t` of the log-softmax of the whole biased array: entry `(p, q)` of the
    body's result on the block is entry `(10000 t + p, q)` of the row-wise log-softmax of `z + b`. -/
theorem flushed_eq (c : Dev nD) (t : Fin cfg2.N) :
    (dat2 (F := Ideal) V c).flushed 2 t
      = ((cfg2.win 2).blk t).view.read (Elt Ideal)
          (Gcn.Layers.logSoftmaxRows (addRow (V c main_v60) (V c main_v61))) := by
  show (cfg2.win 2).cut (grid2.coords t) ((dat2 V c).after 2 t) = _
  rw [after2_2]
  unfold out2_2
  rw [View.canon_unit_zero hz]
  simp only [View.ld_unit_zero (S := S10000x32) hz, View.ld_unit_zero (S := S1x32) hz]
  obtain ⟨-, -, -, -, e4, e5⟩ := idx_facts t
  have hN : cfg2.N = 10 := N_2
  have ht : t.val < 10 := hN ▸ t.isLt
  funext j
  rw [View.read_apply]
  revert j
  show ∀ j : S10000x32.Idx, k2_pay1 (iblk2 V c 0 t) (iblk2 V c 1 t) j
    = Gcn.Layers.logSoftmaxRows (addRow (V c main_v60) (V c main_v61)) (((cfg2.win 2).blk t).view.emb j)
  intro j
  obtain ⟨p, q, rfl⟩ : ∃ (p : Fin 10000) (q : Fin 32), j = ix2 p q := ⟨j 0, j 1, eq_ix2 j⟩
  have hemb : ((cfg2.win 2).blk t).view.emb (ix2 p q)
      = (ix2 (⟨t.val * 10000 + p.val, by omega⟩ : Fin 100000) q : S100000x32.Idx) := by
    funext a; apply Fin.ext
    match a with
    | ⟨0, _⟩ => show win2_2.index t (0 : Fin 2) * 10000 + 1 * p.val = t.val * 10000 + p.val; omega
    | ⟨1, _⟩ => show win2_2.index t (1 : Fin 2) * 32 + 1 * q.val = q.val; omega
  rw [hemb]
  refine (congrFun (pay_eq (iblk2 V c 0 t) (iblk2 V c 1 t)) (ix2 p q)).trans ?_
  rw [blk_bias V c t]
  refine Gcn.Layers.logSoftmaxRows_block (addRow (V c main_v60) (V c main_v61)) _ p _ (fun k => ?_) q
  exact congrArg (· + (V c main_v61 : S1x32.Idx → EReal) (ix2 (0 : Fin 1) k)) (blk_rows V c t p k _ rfl)

/-- An index of the output array is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v62).slice (win2_2.rect t)).set ↔ _
  rw [View.set_slice_whole, Rect.mem_set_unit]
  exact Iff.rfl

/-- The ten blocks tile the output array: row `r` is in the block of point `r / 10000`, and every point writes back. -/
theorem cover (i : S100000x32.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 32 := (i 1).isLt
  let t : Fin cfg2.N := ⟨(i 0).val / 10000, by omega⟩
  obtain ⟨-, -, -, -, e4, e5⟩ := idx_facts t
  have ht : t.val = (i 0).val / 10000 := rfl
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- AFTER THE REGION the output array is the row-wise log-softmax of the whole input array plus the bias row,
    whatever it held before. -/
theorem array (c : Dev nD) :
    (dat2 (F := Ideal) V c).arrAt 2 cfg2.N
      = Gcn.Layers.logSoftmaxRows (addRow (V c main_v60) (V c main_v61)) :=
  (dat2 V c).arrAt_eq_of_cover 2 _ (fun t _ => flushed_eq V c t) cover

end Cert.KernelIdeal.Region2

end
-- ==== Proof.Fold.lean ====
/-
  The kernel's result buffer, walked back through the boundaries of @main, is the network `G` of the argument arrays.

  The generated frame names the contents of every buffer at each of @main's segment boundaries (`Gen.W0` … `Gen.W8`). A
  stretch of host operations applies its operations to the contents it finds; read at one buffer, that is the
  operation's function of the operands' contents, or the contents as found if no operation of the stretch writes the
  buffer. A region leaves each of its arrays at what its write-backs leave — the whole-array layer of its inputs
  (Region0/1/2.lean) — and every other buffer as it found it.

  So each buffer that is still read later is followed from boundary to boundary: the index data `rows`, `cols`, `norm`
  (built once, before the first region, from the edge list), the bias and weight arguments, and the feature array: the
  first product after region 0, one propagation step of it at region 1's entry, `max (· + b1) 0 · W2` of that after
  region 1, one propagation step of that at region 2's entry, and its row log-softmax with `b2` after region 2. The host
  stretches are the reference's operations (Spec.lean) letter for letter: an equation between a stretch's reading and
  the named function closes by unfolding both, with no gather or scatter-add opened.
-/
import proofs.«135108_j67723044323358_1_alg».proof.Proof.Gen.KernelIdeal.Frame
import proofs.«135108_j67723044323358_1_alg».proof.Proof.Spec
import proofs.«135108_j67723044323358_1_alg».proof.Proof.Region0
import proofs.«135108_j67723044323358_1_alg».proof.Proof.Region1
import proofs.«135108_j67723044323358_1_alg».proof.Proof.Region2
import proofs.«135108_j67723044323358_1_alg».proof.Proof.LibConcatPair
import proofs.«135108_j67723044323358_1_alg».proof.Proof.LibOutlined

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Net

variable (m : (ℓ : Loc nD τ sig) → Buf (Elt Ideal) ℓ) (ρ : Dev nD → PrngReg) (c : Dev nD)

/-- Read a stretch of host operations at one buffer: each operation's result at its own buffer is its function of the
    operands' contents, at any other buffer what was there; a two-operand concatenation is read as a function of its
    two operands so that the reading goes on into them; a value carried to a buffer's type and back is itself. -/
macro "walk" : tactic =>
  `(tactic| simp (disch := decide) only [hostOps0, hostOps0_1, hostOps0_2, hostOps1, hostOps2, after_cons, after_nil,
      nullary_result', unary_result', binary_result', ternary_result', quaternary_result', reshape_result', nary4_result',
      nary_result', unaryIndexed_result', binaryIndexed_result',
      nullary_result_ne', unary_result_ne', binary_result_ne', ternary_result_ne', quaternary_result_ne',
      reshape_result_ne', nary_result_ne', unaryIndexed_result_ne', binaryIndexed_result_ne',
      Cert.Lib.ConcatPair.concatenate_pair, Cert.Lib.Outlined.ofBuf_toBuf])

/-! ## At region 0's entry: the arguments as launched, the index data built

  The index data are built by three stretches: the operations up to the operands of the outlined selection, the selection,
  and the rest. The arguments, `rows` and `cols` are read back through all three at once. The degree factor passes through
  the selection, whose operands and result are carried to their buffers' types and back: it is read at an arbitrary
  valuation first (`select_at`), so that those transports are crossed with variables for operands, and so is the last
  stretch's `norm` (`norm_at`). -/

theorem w3_arg0 : W3 m ρ c (Proc.devRef .tc main_arg0) = m ((c.tc : Thread nD τ).loc main_arg0) := by
  dsimp only [W3, W2, W1]; walk
theorem w3_arg2 : W3 m ρ c (Proc.devRef .tc main_arg2) = m ((c.tc : Thread nD τ).loc main_arg2) := by
  dsimp only [W3, W2, W1]; walk
theorem w3_arg3 : W3 m ρ c (Proc.devRef .tc main_arg3) = m ((c.tc : Thread nD τ).loc main_arg3) := by
  dsimp only [W3, W2, W1]; walk
theorem w3_arg4 : W3 m ρ c (Proc.devRef .tc main_arg4) = m ((c.tc : Thread nD τ).loc main_arg4) := by
  dsimp only [W3, W2, W1]; walk
theorem w3_arg5 : W3 m ρ c (Proc.devRef .tc main_arg5) = m ((c.tc : Thread nD τ).loc main_arg5) := by
  dsimp only [W3, W2, W1]; walk

theorem w3_rows : W3 m ρ c (Proc.devRef .tc main_v5) = rows (m ((c.tc : Thread nD τ).loc main_arg1)) := by
  dsimp only [W3, W2, W1]; walk; rfl
theorem w3_cols : W3 m ρ c (Proc.devRef .tc main_v6) = cols (m ((c.tc : Thread nD τ).loc main_arg1)) := by
  dsimp only [W3, W2, W1]; walk; rfl

/-- The selection's three operands, after the first stretch. -/
theorem w1_v12 : W1 m ρ c (Proc.devRef .tc main_v12)
    = cmpf (F := Ideal) .ogt (deg (m ((c.tc : Thread nD τ).loc main_arg1))) (broadcastInDim S100000 ![] bcast_S_S100000 (constant S_ .f32 0x00000000#32)) := by
  dsimp only [W1]; walk; rfl
theorem w1_v14 : W1 m ρ c (Proc.devRef .tc main_v14)
    = Host.powf (deg (m ((c.tc : Thread nD τ).loc main_arg1))) (broadcastInDim S100000 ![] bcast_S_S100000 (constant S_ .f32 0xBF000000#32)) := by
  dsimp only [W1]; walk; rfl
theorem w1_v15 : W1 m ρ c (Proc.devRef .tc main_v15)
    = broadcastInDim S100000 ![] bcast_S_S100000 (constant (F := Ideal) S_ .f32 0x00000000#32) := by
  dsimp only [W1]; walk

/-- The outlined selection, at any contents: the selection of its operands' contents. -/
theorem select_at (V : Valuation τ sig (Elt Ideal)) :
    StableHlo.after hostOps0_1 V (Proc.devRef .tc main_v16)
      = select (V (Proc.devRef .tc main_v12)) (V (Proc.devRef .tc main_v14)) (V (Proc.devRef .tc main_v15)) := by
  walk; rfl

theorem w2_v16 : W2 m ρ c (Proc.devRef .tc main_v16) = dinv (m ((c.tc : Thread nD τ).loc main_arg1)) :=
  (select_at (W1 m ρ c)).trans (by rw [w1_v12 m ρ c, w1_v14 m ρ c, w1_v15 m ρ c]; rfl)
theorem w2_rows : W2 m ρ c (Proc.devRef .tc main_v5) = rows (m ((c.tc : Thread nD τ).loc main_arg1)) := by
  dsimp only [W2, W1]; walk; rfl
theorem w2_cols : W2 m ρ c (Proc.devRef .tc main_v6) = cols (m ((c.tc : Thread nD τ).loc main_arg1)) := by
  dsimp only [W2, W1]; walk; rfl

/-- The last stretch's per-edge factor, at any contents: `normOf` of the contents of the three buffers it reads. -/
theorem norm_at (V : Valuation τ sig (Elt Ideal)) :
    StableHlo.after hostOps0_2 V (Proc.devRef .tc main_v31)
      = normOf (V (Proc.devRef .tc main_v16)) (V (Proc.devRef .tc main_v5)) (V (Proc.devRef .tc main_v6)) := by
  walk; rfl

theorem w3_norm : W3 m ρ c (Proc.devRef .tc main_v31) = norm (m ((c.tc : Thread nD τ).loc main_arg1)) :=
  (norm_at (W2 m ρ c)).trans (by rw [w2_v16 m ρ c, w2_rows m ρ c, w2_cols m ρ c]; rfl)

/-! ## After region 0: the first product; everything else as before -/

theorem w4_v32 : W4 m ρ c (Proc.devRef .tc main_v32)
    = Gcn.Dense.product (m ((c.tc : Thread nD τ).loc main_arg0)) (m ((c.tc : Thread nD τ).loc main_arg2)) :=
  (W4_arr m ρ c 2).trans ((Cert.KernelIdeal.Region0.array (V3 m ρ) c).trans
    (congrArg₂ Gcn.Dense.product (w3_arg0 m ρ c) (w3_arg2 m ρ c)))

theorem w4_arg3 : W4 m ρ c (Proc.devRef .tc main_arg3) = m ((c.tc : Thread nD τ).loc main_arg3) :=
  (W4_of_ne m ρ c main_arg3 (by decide)).trans (w3_arg3 m ρ c)
theorem w4_arg4 : W4 m ρ c (Proc.devRef .tc main_arg4) = m ((c.tc : Thread nD τ).loc main_arg4) :=
  (W4_of_ne m ρ c main_arg4 (by decide)).trans (w3_arg4 m ρ c)
theorem w4_arg5 : W4 m ρ c (Proc.devRef .tc main_arg5) = m ((c.tc : Thread nD τ).loc main_arg5) :=
  (W4_of_ne m ρ c main_arg5 (by decide)).trans (w3_arg5 m ρ c)
theorem w4_rows : W4 m ρ c (Proc.devRef .tc main_v5) = rows (m ((c.tc : Thread nD τ).loc main_arg1)) :=
  (W4_of_ne m ρ c main_v5 (by decide)).trans (w3_rows m ρ c)
theorem w4_cols : W4 m ρ c (Proc.devRef .tc main_v6) = cols (m ((c.tc : Thread nD τ).loc main_arg1)) :=
  (W4_of_ne m ρ c main_v6 (by decide)).trans (w3_cols m ρ c)
theorem w4_norm : W4 m ρ c (Proc.devRef .tc main_v31) = norm (m ((c.tc : Thread nD τ).loc main_arg1)) :=
  (W4_of_ne m ρ c main_v31 (by decide)).trans (w3_norm m ρ c)

/-! ## At region 1's entry: one propagation step of the product, the first bias as a row -/

theorem w5_v45 : W5 m ρ c (Proc.devRef .tc main_v45)
    = prop64 (m ((c.tc : Thread nD τ).loc main_arg1))
        (Gcn.Dense.product (m ((c.tc : Thread nD τ).loc main_arg0)) (m ((c.tc : Thread nD τ).loc main_arg2))) := by
  dsimp only [W5]; walk
  rw [w4_v32 m ρ c, w4_rows m ρ c, w4_cols m ρ c, w4_norm m ρ c]
  rfl

theorem w5_v46 : W5 m ρ c (Proc.devRef .tc main_v46) = Gcn.LayerOps.row (m ((c.tc : Thread nD τ).loc main_arg3)) := by
  dsimp only [W5]; walk
  rw [w4_arg3 m ρ c]
  exact Gcn.LayerOps.shapeCast_row _ _

theorem w5_arg4 : W5 m ρ c (Proc.devRef .tc main_arg4) = m ((c.tc : Thread nD τ).loc main_arg4) := by
  dsimp only [W5]; walk; exact w4_arg4 m ρ c
theorem w5_arg5 : W5 m ρ c (Proc.devRef .tc main_arg5) = m ((c.tc : Thread nD τ).loc main_arg5) := by
  dsimp only [W5]; walk; exact w4_arg5 m ρ c
theorem w5_rows : W5 m ρ c (Proc.devRef .tc main_v5) = rows (m ((c.tc : Thread nD τ).loc main_arg1)) := by
  dsimp only [W5]; walk; exact w4_rows m ρ c
theorem w5_cols : W5 m ρ c (Proc.devRef .tc main_v6) = cols (m ((c.tc : Thread nD τ).loc main_arg1)) := by
  dsimp only [W5]; walk; exact w4_cols m ρ c
theorem w5_norm : W5 m ρ c (Proc.devRef .tc main_v31) = norm (m ((c.tc : Thread nD τ).loc main_arg1)) := by
  dsimp only [W5]; walk; exact w4_norm m ρ c

/-! ## After region 1: the second dense stage of its input array; everything else as before -/

theorem w6_v47 : W6 m ρ c (Proc.devRef .tc main_v47)
    = Gcn.Layers.reluLinear (prop64 (m ((c.tc : Thread nD τ).loc main_arg1)) (Gcn.Dense.product (m ((c.tc : Thread nD τ).loc main_arg0)) (m ((c.tc : Thread nD τ).loc main_arg2))))
        (Gcn.LayerOps.row (m ((c.tc : Thread nD τ).loc main_arg3))) (m ((c.tc : Thread nD τ).loc main_arg4)) :=
  (W6_arr m ρ c 3).trans ((Cert.KernelIdeal.Region1.array (V5 m ρ) c).trans
    (congr (congr (congrArg Gcn.Layers.reluLinear (w5_v45 m ρ c)) (w5_v46 m ρ c)) (w5_arg4 m ρ c)))

theorem w6_arg5 : W6 m ρ c (Proc.devRef .tc main_arg5) = m ((c.tc : Thread nD τ).loc main_arg5) :=
  (W6_of_ne m ρ c main_arg5 (by decide)).trans (w5_arg5 m ρ c)
theorem w6_rows : W6 m ρ c (Proc.devRef .tc main_v5) = rows (m ((c.tc : Thread nD τ).loc main_arg1)) :=
  (W6_of_ne m ρ c main_v5 (by decide)).trans (w5_rows m ρ c)
theorem w6_cols : W6 m ρ c (Proc.devRef .tc main_v6) = cols (m ((c.tc : Thread nD τ).loc main_arg1)) :=
  (W6_of_ne m ρ c main_v6 (by decide)).trans (w5_cols m ρ c)
theorem w6_norm : W6 m ρ c (Proc.devRef .tc main_v31) = norm (m ((c.tc : Thread nD τ).loc main_arg1)) :=
  (W6_of_ne m ρ c main_v31 (by decide)).trans (w5_norm m ρ c)

/-! ## At region 2's entry: one propagation step of that, the second bias as a row -/

theorem w7_v60 : W7 m ρ c (Proc.devRef .tc main_v60)
    = prop32 (m ((c.tc : Thread nD τ).loc main_arg1)) (Gcn.Layers.reluLinear (prop64 (m ((c.tc : Thread nD τ).loc main_arg1)) (Gcn.Dense.product (m ((c.tc : Thread nD τ).loc main_arg0)) (m ((c.tc : Thread nD τ).loc main_arg2)))) (Gcn.LayerOps.row (m ((c.tc : Thread nD τ).loc main_arg3))) (m ((c.tc : Thread nD τ).loc main_arg4))) := by
  dsimp only [W7]; walk
  rw [w6_v47 m ρ c, w6_rows m ρ c, w6_cols m ρ c, w6_norm m ρ c]
  rfl

theorem w7_v61 : W7 m ρ c (Proc.devRef .tc main_v61) = Gcn.LayerOps.row (m ((c.tc : Thread nD τ).loc main_arg5)) := by
  dsimp only [W7]; walk
  rw [w6_arg5 m ρ c]
  exact Gcn.LayerOps.shapeCast_row _ _

/-! ## After region 2: the network -/

/-- The result buffer at the last boundary is the network of the argument arrays as launched. -/
theorem result : W8 m ρ c (Proc.devRef .tc main_v62)
    = G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  (W8_arr m ρ c 2).trans ((Cert.KernelIdeal.Region2.array (V7 m ρ) c).trans
    (congrArg Gcn.Layers.logSoftmaxRows
      (congrArg₂ Cert.KernelIdeal.Region2.addRow (w7_v60 m ρ c) (w7_v61 m ρ c))))

end Cert.KernelIdeal.Fold

end
-- ==== Proof.lean ====
/-
  A two-layer graph convolution with a row log-softmax: a Pallas kernel's program against its jax reference, equal over the
  extended reals.

  Both programs build the same index data from the edge list with the same host operations (each edge's source and target
  node followed by one self-loop per node, the in-degree as a scatter-add of ones, `deg^(-1/2)` where positive, the product of
  that factor at an edge's two ends) and propagate features with the same gather, scaling and scatter-add. They differ in
  the three dense stages, which the kernel's program runs as pallas_call regions over blocks of rows and the reference as
  host operations on whole arrays: `x · W1`; `max (a + b1) 0 · W2`; the logarithm of the row softmax of `a + b2`. On the
  extended reals each stage, either way, is the same entry-by-entry function (a change of float format is the identity; a
  product into the zero accumulator is the plain sum of products; a fold of `max` from −∞ over a row is the row's supremum,
  and one more maximum against −∞ changes nothing; an entry of a stage reads one row of its input, so the stage of a block
  of rows is the block of the stage). Nothing is moved across a sum and no gather or scatter-add is opened, so the
  precondition (finite inputs) is not used: the node numbers may be any 32-bit integers.

    * Spec.lean        — the shared host stretches as functions, and the network `G` of the six argument arrays;
    * ReferenceRun.lean, RefValue.lean — the reference's run, and its result term is `G`;
    * KernelRun.lean   — the kernel's run with the result buffer named at the last segment boundary's contents;
    * Region0/1/2.lean — each region's output array is the stage of its input arrays;
    * Fold.lean        — those contents, walked back through @main's boundaries, are `G`.

  The three frames are the generated ones (the reference's is its run with the result dropped); `preserves` is `True`: the
  idealization rewrote no operation.
-/
import proofs.«135108_j67723044323358_1_alg».proof.Defs
import proofs.«135108_j67723044323358_1_alg».proof.Proof.Gen.Kernel
import proofs.«135108_j67723044323358_1_alg».proof.Proof.Gen.Kernel.Skeleton
import proofs.«135108_j67723044323358_1_alg».proof.Proof.Gen.Kernel.Launch
import proofs.«135108_j67723044323358_1_alg».proof.Proof.Gen.Kernel.Points
import proofs.«135108_j67723044323358_1_alg».proof.Proof.Gen.Kernel.Frame
import proofs.«135108_j67723044323358_1_alg».proof.Proof.Gen.KernelIdeal
import proofs.«135108_j67723044323358_1_alg».proof.Proof.Gen.KernelIdeal.Skeleton
import proofs.«135108_j67723044323358_1_alg».proof.Proof.Gen.KernelIdeal.Launch
import proofs.«135108_j67723044323358_1_alg».proof.Proof.Gen.KernelIdeal.Points
import proofs.«135108_j67723044323358_1_alg».proof.Proof.Gen.KernelIdeal.Frame
import proofs.«135108_j67723044323358_1_alg».proof.Proof.Gen.ReferenceIdeal
import proofs.«135108_j67723044323358_1_alg».proof.Proof.Gen.Pre_finite_inputs
import proofs.«135108_j67723044323358_1_alg».proof.Proof.ReferenceRun
import proofs.«135108_j67723044323358_1_alg».proof.Proof.RefValue
import proofs.«135108_j67723044323358_1_alg».proof.Proof.KernelRun
import proofs.«135108_j67723044323358_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the result array at the network `G` of the arguments:
    the kernel's by its run and the walk through @main's boundaries, the reference's by its run and `res_eq_G`. -/
theorem algebraic : Cert.algebraic_KernelIdeal_ReferenceIdeal := by
  intro m ρ m' ρ' _ hagree
  refine ⟨fun c => Cert.ReferenceIdeal.Net.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5⟩ := hagree c
    rw [Cert.ReferenceIdeal.Net.res_eq_G m' c, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
